-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x256x256 : Shape := ⟨4, ![16, 3, 256, 256]⟩
abbrev S_ : Shape := ⟨0, ![]⟩

class Facts : Prop where
  bcast_S_S16x3x256x256 : S_.BroadcastsInDim S16x3x256x256 (![] : Fin 0 → Fin S16x3x256x256.rank)
  reducesTo_S16x3x256x256_S_d0_1_2_3 : S16x3x256x256.ReducesTo [0, 1, 2, 3] S_
  h_S_ : 0 < S_.numel

variable [Facts]

def fn {F : FTy → Type} [FloatOps F] (main_arg0 : FVec F S16x3x256x256 .f32) (main_arg1 : FVec F S16x3x256x256 .f32) : IVec S_ 1 :=
  let main_v0 : FVec F S16x3x256x256 .f32 := Host.absf main_arg0
  let main_cst : FVec F S_ .f32 := constant S_ .f32 0x7F800000#32
  let main_v1 : FVec F S16x3x256x256 .f32 := broadcastInDim S16x3x256x256 ![] bcast_S_S16x3x256x256 main_cst
  let main_v2 : IVec S16x3x256x256 1 := cmpf .olt main_v0 main_v1
  let main_c : IVec S_ 1 := constantI S_ 1 1#1
  let main_v3 : IVec S_ 1 := (fun x v => Host.reduce IntOp.andi x v reducesTo_S16x3x256x256_S_d0_1_2_3 h_S_) main_v2 main_c
  let main_v4 : FVec F S16x3x256x256 .f32 := Host.absf main_arg1
  let main_cst_0 : FVec F S_ .f32 := constant S_ .f32 0x7F800000#32
  let main_v5 : FVec F S16x3x256x256 .f32 := broadcastInDim S16x3x256x256 ![] bcast_S_S16x3x256x256 main_cst_0
  let main_v6 : IVec S16x3x256x256 1 := cmpf .olt main_v4 main_v5
  let main_c_1 : IVec S_ 1 := constantI S_ 1 1#1
  let main_v7 : IVec S_ 1 := (fun x v => Host.reduce IntOp.andi x v reducesTo_S16x3x256x256_S_d0_1_2_3 h_S_) main_v6 main_c_1
  let main_v8 : IVec S_ 1 := andi main_v3 main_v7
  main_v8
-- ==== Kernel.lean ====
abbrev S16x3x256x256 : Shape := ⟨4, ![16, 3, 256, 256]⟩
abbrev S12288x256 : Shape := ⟨2, ![12288, 256]⟩
abbrev S2x8x256 : Shape := ⟨3, ![2, 8, 256]⟩
abbrev S3072x256 : Shape := ⟨2, ![3072, 256]⟩
abbrev S1x8x256 : Shape := ⟨3, ![1, 8, 256]⟩
abbrev S8x256 : Shape := ⟨2, ![8, 256]⟩
abbrev S384x8x256 : Shape := ⟨3, ![384, 8, 256]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S16x3x256x256, .f32⟩
  | .hbm, ⟨1, _⟩ => ⟨S16x3x256x256, .f32⟩
  | .hbm, ⟨2, _⟩ => ⟨S12288x256, .f32⟩
  | .hbm, ⟨3, _⟩ => ⟨S12288x256, .f32⟩
  | .hbm, ⟨4, _⟩ => ⟨S2x8x256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S3072x256, .f32⟩
  | .local _ .vmem, ⟨1, _⟩ => ⟨S3072x256, .f32⟩
  | .local _ .vmem, ⟨2, _⟩ => ⟨S3072x256, .f32⟩
  | .local _ .vmem, ⟨3, _⟩ => ⟨S3072x256, .f32⟩
  | .local _ .vmem, ⟨4, _⟩ => ⟨S1x8x256, .f32⟩
  | .local _ .vmem, ⟨5, _⟩ => ⟨S1x8x256, .f32⟩
  | .local _ .vmem, ⟨6, _⟩ => ⟨S8x256, .f32⟩
  | _, _ => ⟨S16x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3072x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3072x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x3x256x256_S12288x256 : S16x3x256x256.ShapeCasts S12288x256
  inb_S3072x256_S3072x256_0_0 : ∀ a, (![0, 0] : Fin 2 → Nat) a + S3072x256.size a ≤ S3072x256.size a
  h_S3072x256 : 0 < S3072x256.numel
  shapeCasts_S3072x256_S3072x256 : S3072x256.ShapeCasts S3072x256
  shapeCasts_S3072x256_S384x8x256 : S3072x256.ShapeCasts S384x8x256
  reduces_S384x8x256_S8x256 : S384x8x256.Reduces [0] S8x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x8x256_S1x8x256_0_0_0 : ∀ a, (![0, 0, 0] : Fin 3 → Nat) a + S1x8x256.size a ≤ S1x8x256.size a
  h_S1x8x256 : 0 < S1x8x256.numel
  shapeCasts_S1x8x256_S8x256 : S1x8x256.ShapeCasts S8x256
  shapeCasts_S8x256_S1x8x256 : S8x256.ShapeCasts S1x8x256
  reducesTo_S2x8x256_S_d0_1_2 : S2x8x256.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x256.size a ≤ S12288x256.size a
  hwx0_0 : ∀ i : grid0.Coords, EltTy.bits .f32 = 32 ∨ (Rect.block (s := S12288x256) S3072x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x256.size a ≤ S12288x256.size a
  hwx0_1 : ∀ i : grid0.Coords, EltTy.bits .f32 = 32 ∨ (Rect.block (s := S12288x256) S3072x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256.size a ≤ S2x8x256.size a
  hwx0_2 : ∀ i : grid0.Coords, EltTy.bits .f32 = 32 ∨ (Rect.block (s := S2x8x256) S1x8x256.size (cc0_transform_2 i) (hinb0_2 i)).WholeWords (EltTy.packing .f32)

variable [Facts₀]

abbrev win0_0 : Pipeline.Window sig grid0 :=
  Pipeline.Window.ofSpec (Memref.whole main_v0) S3072x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S16x3x256x256 : Shape := ⟨4, ![16, 3, 256, 256]⟩
abbrev S3145728 : Shape := ⟨1, ![3145728]⟩
abbrev S24576x128 : Shape := ⟨2, ![24576, 128]⟩
abbrev S16x128 : Shape := ⟨2, ![16, 128]⟩
abbrev S4096x128 : Shape := ⟨2, ![4096, 128]⟩
abbrev S8x128 : Shape := ⟨2, ![8, 128]⟩
abbrev S512x8x128 : Shape := ⟨3, ![512, 8, 128]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S16x3x256x256, .f32⟩
  | .hbm, ⟨1, _⟩ => ⟨S16x3x256x256, .f32⟩
  | .hbm, ⟨2, _⟩ => ⟨S3145728, .f32⟩
  | .hbm, ⟨3, _⟩ => ⟨S3145728, .f32⟩
  | .hbm, ⟨4, _⟩ => ⟨S24576x128, .f32⟩
  | .hbm, ⟨5, _⟩ => ⟨S24576x128, .f32⟩
  | .hbm, ⟨6, _⟩ => ⟨S16x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S8x128, .f32⟩
  | .local _ .vmem, ⟨5, _⟩ => ⟨S8x128, .f32⟩
  | _, _ => ⟨S16x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_4 : BitVec 32 := 0#32
  let v13 : BitVec 1 := Scalar.cmpi .ne v12 c0_i32_4
  v13

def k0_cond2 (i : grid0.Coords) : BitVec 1 :=
  let arg1 : BitVec 32 := BitVec.ofNat 32 (i 1).val
  let c0_i32_5 : BitVec 32 := 0#32
  let v14 : BitVec 1 := Scalar.cmpi .sgt arg1 c0_i32_5
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x3x256x256_S3145728 : S16x3x256x256.ShapeCasts S3145728
  shapeCasts_S3145728_S24576x128 : S3145728.ShapeCasts S24576x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S4096x128_S512x8x128 : S4096x128.ShapeCasts S512x8x128
  reduces_S512x8x128_S8x128 : S512x8x128.Reduces [0] S8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S24576x128.size a
  hwx0_0 : ∀ i : grid0.Coords, EltTy.bits .f32 = 32 ∨ (Rect.block (s := S24576x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S24576x128.size a
  hwx0_1 : ∀ i : grid0.Coords, EltTy.bits .f32 = 32 ∨ (Rect.block (s := S24576x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v2) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== Proof.RefRuns.lean ====
/-
  The second program's kernel body, run once for each way its two conditionals can go.

  The body loads its two input blocks, computes the fold `k0_pay1` of their errors (an 8-row array), and then:
  at the first step of a half (the step coordinate is 0) it STORES the fold into the output block; at every later
  step (the step coordinate is positive) it loads the output block and stores the block PLUS the fold.  Exactly one of
  the two conditions holds at every grid point: the first at the points 0 and 3 (position a multiple of 3), the
  second at the points 1, 2, 4, 5.  Each run is stated on arbitrary whole staging buffers; what the output's buffer
  ends with is recorded as the list of pieces the run's stores wrote.
-/
import proofs.«117031_g2000302971103860_pallasbulk_1339_13_alg».proof.Proof.Gen.ReferenceIdeal.Frame
import proofs.«117031_g2000302971103860_pallasbulk_1339_13_alg».proof.Proof.Gen.ReferenceIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RefFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-- The first conditional's condition: the step coordinate is zero. -/
abbrev condA (i : grid0.Coords) : Prop := k0_cond1 i = 1#1
/-- It holds exactly at the points whose position is a multiple of 3 (the first step of each half). -/
theorem hcondA : ∀ t : Fin cfg0.N, condA (grid0.coords t) ↔ t.val % 3 = 0 :=
  (by decide +kernel : ∀ t : Fin grid0.N, condA (grid0.coords t) ↔ t.val % 3 = 0)

/-- The second conditional's condition: the step coordinate is positive. -/
abbrev condB (i : grid0.Coords) : Prop := k0_cond2 i = 1#1
/-- It holds exactly at the other points. -/
theorem hcondB : ∀ t : Fin cfg0.N, condB (grid0.coords t) ↔ ¬ t.val % 3 = 0 :=
  (by decide +kernel : ∀ t : Fin grid0.N, condB (grid0.coords t) ↔ ¬ t.val % 3 = 0)

/-- One of the two conditionals stores into the output block at every grid point: the window is never idle. -/
theorem live2 : ∀ i : grid0.Coords, cfg0.idle 2 i = false := by decide +kernel

/-- One staging buffer of the output window, through which its contents are stated. -/
abbrev VO2 : View sig .tc .vmem S8x128 .f32 := (Memref.whole cc0_stg2_0 : Memref sig .tc .vmem S8x128 .f32).view
/-- Each window's current staging buffer at point `t`, and its wholeness. -/
abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)

set_option maxHeartbeats 1000000 in
/-- The body at a first step (`condA`, not `condB`): from the input buffers at `x0`, `x1` and the output buffer at
    anything, it runs to the continuation with the inputs as they were and the output buffer with the pieces `L2`
    written. -/
noncomputable def runA (c : Dev nD) (i : grid0.Coords) (arg2 : Memref sig .tc .vmem S4096x128 .f32) (harg2 : arg2.IsWhole)
    (arg3 : Memref sig .tc .vmem S4096x128 .f32) (harg3 : arg3.IsWhole) (arg4 : Memref sig .tc .vmem S8x128 .f32) (harg4 : arg4.IsWhole)
    (hcA : condA i) (hcB : ¬condB i) (x0 : Vec F S4096x128 .f32) (x1 : Vec F S4096x128 .f32) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__charbonnier_kernel i arg2 harg2 arg3 harg3 arg4 harg4) K } := by
  refine ⟨?_, fun E K => ?run⟩
  case run =>
    simp only [cc0__charbonnier_kernel_eq_skeleton]; unfold cc0__charbonnier_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hcA | exact hcB)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body at a later step (`condB`, not `condA`): the output buffer comes in at `xo`, what the step before left. -/
noncomputable def runB (c : Dev nD) (i : grid0.Coords) (arg2 : Memref sig .tc .vmem S4096x128 .f32) (harg2 : arg2.IsWhole)
    (arg3 : Memref sig .tc .vmem S4096x128 .f32) (harg3 : arg3.IsWhole) (arg4 : Memref sig .tc .vmem S8x128 .f32) (harg4 : arg4.IsWhole)
    (hcA : ¬condA i) (hcB : condB i) (x0 : Vec F S4096x128 .f32) (x1 : Vec F S4096x128 .f32) (xo : Vec F S8x128 .f32) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__charbonnier_kernel i arg2 harg2 arg3 harg3 arg4 harg4) K } := by
  refine ⟨?_, fun E K => ?run⟩
  case run =>
    simp only [cc0__charbonnier_kernel_eq_skeleton]; unfold cc0__charbonnier_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hcA | exact hcB)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.ReferenceIdeal.RefFrame

end
-- ==== Proof.RefFrame.lean ====
/-
  The second program's frame: the proof data of its one pipeline, the body obligation, the run and the frame claim.

  After the body at grid point `t` the two input buffers hold their blocks and the output buffer holds `outsAt t`:
  at a first step (position a multiple of 3) what the storing run leaves, at a later step what the adding run leaves
  from what the step before left — the output's buffer is not written back between the steps of a half (it is
  written back only at the last step, position 2 mod 3), so at a later step it still holds what the step before left.
-/
import proofs.«117031_g2000302971103860_pallasbulk_1339_13_alg».proof.Proof.RefRuns

set_option maxRecDepth 16384

noncomputable section

namespace Cert.ReferenceIdeal.RefFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The storing run's pieces (one store of the whole block) cover the output block. -/
theorem coverA (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (hcA : condA i) (hcB : ¬condB i)
    (x0 : Vec F S4096x128 .f32) (x1 : Vec F S4096x128 .f32) (y : S8x128.Idx) :
    ∃ pc ∈ (runA c i arg2 harg2 arg3 harg3 arg4 harg4 hcA hcB x0 x1).1, y ∈ pc.1.set :=
  View.cover_of_tiledL (runA c i arg2 harg2 arg3 harg3 arg4 harg4 hcA hcB x0 x1).1 S8x128.size (by sl_kernel_rfl) y

/-- What the storing run leaves in the output's buffer: its pieces read back. -/
def outA (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (hcA : condA i) (hcB : ¬condB i)
    (x0 : Vec F S4096x128 .f32) (x1 : Vec F S4096x128 .f32) : Vec F S8x128 .f32 :=
  VO2.read (Elt F) (VO2.writes (Elt F) VO2.junk (runA c i arg2 harg2 arg3 harg3 arg4 harg4 hcA hcB x0 x1).1)

/-- The adding run's pieces cover the output block. -/
theorem coverB (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (hcA : ¬condA i) (hcB : condB i)
    (x0 : Vec F S4096x128 .f32) (x1 : Vec F S4096x128 .f32) (xo : Vec F S8x128 .f32) (y : S8x128.Idx) :
    ∃ pc ∈ (runB c i arg2 harg2 arg3 harg3 arg4 harg4 hcA hcB x0 x1 xo).1, y ∈ pc.1.set :=
  View.cover_of_tiledL (runB c i arg2 harg2 arg3 harg3 arg4 harg4 hcA hcB x0 x1 xo).1 S8x128.size (by sl_kernel_rfl) y

/-- What the adding run leaves in the output's buffer. -/
def outB (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (hcA : ¬condA i) (hcB : condB i)
    (x0 : Vec F S4096x128 .f32) (x1 : Vec F S4096x128 .f32) (xo : Vec F S8x128 .f32) : Vec F S8x128 .f32 :=
  VO2.read (Elt F) (VO2.writes (Elt F) VO2.junk (runB c i arg2 harg2 arg3 harg3 arg4 harg4 hcA hcB x0 x1 xo).1)

/-! ## What the output's buffer holds after each point -/

/-- The accumulation, by recursion on the position. -/
def outsAt (c : Dev nD) : (n : ℕ) → n < cfg0.N → Vec F S8x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) ((hcondA ⟨0, hn⟩).mpr (Nat.zero_mod _)) (fun h => (hcondB ⟨0, hn⟩).mp h (Nat.zero_mod _)) (iblk m c 0 ⟨0, hn⟩) (iblk m c 1 ⟨0, hn⟩)
  | n + 1, hn =>
    if h0 : (n + 1) % 3 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) ((hcondA ⟨n + 1, hn⟩).mpr h0) (fun h => (hcondB ⟨n + 1, hn⟩).mp h h0) (iblk m c 0 ⟨n + 1, hn⟩) (iblk m c 1 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (fun h => h0 ((hcondA ⟨n + 1, hn⟩).mp h)) ((hcondB ⟨n + 1, hn⟩).mpr h0) (iblk m c 0 ⟨n + 1, hn⟩) (iblk m c 1 ⟨n + 1, hn⟩) (outsAt c n (Nat.lt_of_succ_lt hn))

/-- At a first step: the storing run's contents. -/
theorem outsAt_A (c : Dev nD) (t : Fin cfg0.N) (h0 : t.val % 3 = 0) :
    outsAt m c t.val t.isLt = outA c (grid0.coords t) (ms0 t) (hs0 t) (ms1 t) (hs1 t) (ms2 t) (hs2 t) ((hcondA t).mpr h0) (fun h => (hcondB t).mp h h0) (iblk m c 0 t) (iblk m c 1 t) := by
  obtain ⟨n, hn⟩ := t
  cases n with
  | zero => exact rfl
  | succ n => exact (dif_pos h0).trans rfl

/-- At a later step: the adding run's contents, over what the step before left. -/
theorem outsAt_B (c : Dev nD) (t : Fin cfg0.N) (h0 : ¬t.val % 3 = 0) :
    outsAt m c t.val t.isLt = outB c (grid0.coords t) (ms0 t) (hs0 t) (ms1 t) (hs1 t) (ms2 t) (hs2 t) (fun h => h0 ((hcondA t).mp h)) ((hcondB t).mpr h0) (iblk m c 0 t) (iblk m c 1 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer at
    its block and the output's at `outsAt`; the region's invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outsAt m c t.val t.isLt := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later step the output's current staging buffer holds what the body left at the step before: the point is not
    the first, the buffer was not written back between, the window is live and uncut. -/
theorem before2_B (c : Dev nD) (t : Fin cfg0.N) (h0 : ¬t.val % 3 = 0) (d) :
    (dats m 0 c).before 2 t d = outsAt m c (t.val - 1) (Nat.lt_of_le_of_lt (Nat.sub_le _ _) t.isLt) := by
  have hN : t.val < 6 := lt_of_lt_of_eq t.isLt (show cfg0.N = 6 from N_0)
  rw [Dat.before_out_kept _ 2 rfl t (by omega) (Bool.eq_false_iff.mpr fun h => by have := (flush0_2 _).mp h; dsimp only at this; omega)
    live2 (fun _ _ => rfl)]
  dsimp only [dats]

theorem liveAt0 : ∀ t : Fin cfg0.N, cfg0.idle 0 (grid0.coords t) = false := fun _ => rfl
theorem liveAt1 : ∀ t : Fin cfg0.N, cfg0.idle 1 (grid0.coords t) = false := fun _ => rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point: the inputs' buffers hold their blocks; the position decides which run applies; at a later
    step the output's buffer holds what the step before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [liveAt0 t], after0]
  rw [show (dats m 0 c).leavesExact 1 t = owns (c : Thread nD τ) (ms1 t) fullShare ((dats m 0 c).after 1 t) from by
      unfold Dat.leavesExact; rw [liveAt1 t], after1]
  rw [show (dats m 0 c).leavesExact 2 t = owns (c : Thread nD τ) (ms2 t) fullShare ((dats m 0 c).after 2 t) from by
      unfold Dat.leavesExact; rw [live2 (grid0.coords t)], after2]
  have hN : t.val < 6 := lt_of_lt_of_eq t.isLt (show cfg0.N = 6 from N_0)
  by_cases h0 : t.val % 3 = 0
  · rw [outsAt_A m c t h0]
    unfold outA
    iintro ⟨HΦ, Ho, ⟨%d0, H0⟩, ⟨%d1, H1⟩, ⟨%d2, H2⟩⟩
    iapply ((runA c (grid0.coords t) _ _ _ _ _ _ ((hcondA t).mpr h0) (fun h => (hcondB t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverA c _ _ _ _ _ _ _ _ _ _ _)
  · rw [outsAt_B m c t h0]
    simp only [before2_B m c t h0]
    unfold outB
    iintro ⟨HΦ, Ho, ⟨%d0, H0⟩, ⟨%d1, H1⟩, ⟨%d2, H2⟩⟩
    iapply ((runB c (grid0.coords t) _ _ _ _ _ _ (fun h => h0 ((hcondA t).mp h)) ((hcondB t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data computes and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.ReferenceIdeal.RefFrame

end
-- ==== Proof.Spec.lean ====
/-
  The specification both programs are read against.

  Both programs compute the mean Charbonnier error of two f32[16, 3, 256, 256] arrays: the sum over all
  3145728 positions of the error at that position, divided by the count.  The two programs lay the arrays out
  differently (12288 rows of 256 lanes in four blocks of 3072 rows; 24576 rows of 128 lanes in six blocks of 4096
  rows), fold each block's rows eight at a time and add the folds of a half's blocks into one 8-row partial; the
  host then sums the partials.  Everything is stated here over the ROW-MAJOR POSITION `k` of an element, a natural
  number, so that the two layouts are two ways of writing one `k`.

  `errK` is the error as the first program computes it, `v * rsqrt v` with `v = (x - y)^2 + eps`; `errR` as the
  second does, `sqrt v`.  On real arguments they agree (`v` is then a positive real).
-/
import Idealize.ShloMosaic.PureOps.Ideal
import Idealize.ShloMosaic.PureOps.Ideal.Laws
import Idealize.ShloMosaic.Lib.ValueIdx
import Idealize.ShloMosaic.Lib.Pipeline.Value

noncomputable section

namespace Charb

open Idealize.ShloMosaic

/-- The arguments' shape. -/
abbrev S4 : Shape := ⟨4, ![16, 3, 256, 256]⟩
/-- The first program's partial sums: two halves, eight rows, 256 lanes. -/
abbrev SK : Shape := ⟨3, ![2, 8, 256]⟩
/-- The second program's partial sums: sixteen rows (two halves of eight), 128 lanes. -/
abbrev SR : Shape := ⟨2, ![16, 128]⟩
/-- Rank zero: a scalar. -/
abbrev S0 : Shape := ⟨0, ![]⟩

/-- An argument array read at row-major position `k` (zero past the end, where nothing reads it). -/
def flat (x : S4.Idx → EReal) (k : ℕ) : EReal :=
  if h : k < S4.numel then x (S4.rowMajor.symm ⟨k, h⟩) else 0

/-- The additive constant under the root, as both programs spell it. -/
def eps : EReal := Ideal.ofBits .f32 0x358637BD#32

/-- The squared difference plus `eps` at position `k`. -/
def vAt (x y : S4.Idx → EReal) (k : ℕ) : EReal := (flat x k - flat y k) * (flat x k - flat y k) + eps

/-- The error at position `k` as the first program computes it. -/
def errK (x y : S4.Idx → EReal) (k : ℕ) : EReal := vAt x y k * Ideal.rsqrt (vAt x y k)

/-- The error at position `k` as the second program computes it. -/
def errR (x y : S4.Idx → EReal) (k : ℕ) : EReal := Ideal.sqrt (vAt x y k)

/-- Row-major position of lane `l` of row `a * 8 + r` of block `b`, for blocks of `rows` rows of `w` lanes. -/
def pos (rows w b a r l : ℕ) : ℕ := (b * rows + (a * 8 + r)) * w + l

/-- One block's fold in the first layout: row `r`, lane `l` of block `b` sums the 384 rows `a * 8 + r`. -/
def foldK (x y : S4.Idx → EReal) (b r l : ℕ) : EReal := ∑ a : Fin 384, errK x y (pos 3072 256 b a.val r l)

/-- One block's fold in the second layout: 512 rows `a * 8 + r` of 128 lanes. -/
def foldR (x y : S4.Idx → EReal) (b r l : ℕ) : EReal := ∑ a : Fin 512, errR x y (pos 4096 128 b a.val r l)

/-- The first program's partials: half `s` adds the folds of its two blocks `2 s` and `2 s + 1`, in that order. -/
def partK (x y : S4.Idx → EReal) : SK.Idx → EReal := fun j =>
  foldK x y ((j 0).val * 2 + 0) (j 1).val (j 2).val + foldK x y ((j 0).val * 2 + 1) (j 1).val (j 2).val

/-- The second program's partials: row `q` belongs to half `q / 8` and is row `q % 8` of its blocks
    `3 (q / 8)`, `3 (q / 8) + 1`, `3 (q / 8) + 2`, added in that order. -/
def partR (x y : S4.Idx → EReal) : SR.Idx → EReal := fun j =>
  foldR x y ((j 0).val / 8 * 3 + 0) ((j 0).val % 8) (j 1).val
    + foldR x y ((j 0).val / 8 * 3 + 1) ((j 0).val % 8) (j 1).val
    + foldR x y ((j 0).val / 8 * 3 + 2) ((j 0).val % 8) (j 1).val

/-- The host's last two lines on a partial array `p`: the initial value `0.0` plus the sum of all of `p`, divided by the
    element count `3145728.0` — both as the patterns the programs print. -/
def meanOf {s : Shape} (p : s.Idx → EReal) : S0.Idx → EReal := fun _ =>
  Ideal.div (Ideal.ofBits .f32 0x00000000#32 + ∑ j : s.Idx, p j) (Ideal.ofBits .f32 0x4A400000#32)

/-- The first program's result. -/
def resK (x y : S4.Idx → EReal) : S0.Idx → EReal := meanOf (partK x y)
/-- The second program's result. -/
def resR (x y : S4.Idx → EReal) : S0.Idx → EReal := meanOf (partR x y)

/-- Every entry of an array is a real number. -/
def Finite (x : S4.Idx → EReal) : Prop := ∀ i, ∃ r : ℝ, x i = (r : EReal)

end Charb

end
-- ==== Proof.RefPayload.lean ====
/-
  The second program's kernel body as values.

  What each run of the body leaves in the output's buffer is its one covering store's payload: the fold of the two
  blocks at a first step, the buffer's previous contents plus that fold at a later step.  The fold at row `r`, lane `l`
  sums, over the 512 groups `a` of eight rows, the error at row `a * 8 + r`, lane `l` of the block (the block's rows
  regrouped [4096, 128] -> [512, 8, 128] keep their row-major order).  A block's element is the argument array's
  element at the same row-major position: the reshapes before the call keep row-major order too.
-/
import proofs.«117031_g2000302971103860_pallasbulk_1339_13_alg».proof.Proof.RefFrame
import proofs.«117031_g2000302971103860_pallasbulk_1339_13_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Cert.ReferenceIdeal.RefFrame ValueIdx

theorem hz2 : (![0, 0] : Fin 2 → Nat) = fun _ => 0 := funext fun a => by fin_cases a <;> rfl

/-- At a first step the output's buffer ends at the fold of the two blocks. -/
theorem outA_eq (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (hcA : condA i) (hcB : ¬condB i)
    (x0 : Vec F S4096x128 .f32) (x1 : Vec F S4096x128 .f32) :
    outA c i arg2 harg2 arg3 harg3 arg4 harg4 hcA hcB x0 x1 = k0_pay1 x0 x1 := by
  unfold outA
  rw [View.read_writes_eq_canon _ _ _ (coverA c i arg2 harg2 arg3 harg3 arg4 harg4 hcA hcB x0 x1)]
  unfold runA
  dsimp only
  rw [View.canon_unit_zero hz2]
  simp only [View.readAt_eq_ld, harg2.read_unread, harg3.read_unread, View.ld_unit_zero (S := S4096x128) hz2]

/-- At a later step it ends at its previous contents plus the fold. -/
theorem outB_eq (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (hcA : ¬condA i) (hcB : condB i)
    (x0 : Vec F S4096x128 .f32) (x1 : Vec F S4096x128 .f32) (xo : Vec F S8x128 .f32) :
    outB c i arg2 harg2 arg3 harg3 arg4 harg4 hcA hcB x0 x1 xo = k0_pay2 x0 x1 xo := by
  unfold outB
  rw [View.read_writes_eq_canon _ _ _ (coverB c i arg2 harg2 arg3 harg3 arg4 harg4 hcA hcB x0 x1 xo)]
  unfold runB
  dsimp only
  rw [View.canon_unit_zero hz2]
  simp only [View.readAt_eq_ld, harg2.read_unread, harg3.read_unread, harg4.read_unread, View.ld_unit_zero (S := S4096x128) hz2, View.ld_unit_zero (S := S8x128) hz2]

/-- Regrouping the block's rows eight at a time: group `a`, row `r` of the group is row `a * 8 + r`. -/
theorem regroup_apply (v : S4096x128.Idx → EReal) (a : Fin 512) (r : Fin 8) (l : Fin 128) :
    shapeCast S512x8x128 v shapeCasts_S4096x128_S512x8x128 (ix3 a r l) = v (ix2 ⟨a.val * 8 + r.val, by omega⟩ l) :=
  shapeCast_apply v _ _ _ (by rw [Shape.rowMajor_val_two, Shape.rowMajor_val_three]; rfl)

/-- The sum over the groups, read at row `r`, lane `l`. -/
theorem groupsum_apply (v : FVec Ideal S512x8x128 .f32) (r : Fin 8) (l : Fin 128) :
    multiReduction .add [0] S8x128 v 0x00000000#32 reduces_S512x8x128_S8x128 (.inl rfl) rfl (ix2 r l) = ∑ a : Fin 512, v (ix3 a r l) := by
  refine (Ideal.multiReduction_add_single v 0x00000000#32 reduces_S512x8x128_S8x128 (.inl rfl) rfl (ix2 r l)).trans ?_
  refine Finset.sum_congr rfl fun a _ => congrArg v ?_
  funext d
  match d with
  | ⟨0, _⟩ => rfl
  | ⟨1, _⟩ => rfl
  | ⟨2, _⟩ => rfl

/-- The fold of two blocks at row `r`, lane `l`. -/
theorem pay1_apply (x0 x1 : Vec Ideal S4096x128 .f32) (r : Fin 8) (l : Fin 128) :
    k0_pay1 (F := Ideal) x0 x1 (ix2 r l)
      = ∑ a : Fin 512, Ideal.sqrt ((x0 (ix2 ⟨a.val * 8 + r.val, by omega⟩ l) - x1 (ix2 ⟨a.val * 8 + r.val, by omega⟩ l))
          * (x0 (ix2 ⟨a.val * 8 + r.val, by omega⟩ l) - x1 (ix2 ⟨a.val * 8 + r.val, by omega⟩ l)) + Ideal.ofBits .f32 0x358637BD#32) := by
  unfold k0_pay1
  simp only [shapeCast_self]
  refine (groupsum_apply _ r l).trans ?_
  refine Finset.sum_congr rfl fun a _ => ?_
  refine (regroup_apply _ a r l).trans ?_
  rfl

/-- The later step's payload at an index: the previous contents plus the fold. -/
theorem pay2_apply (x0 x1 : Vec Ideal S4096x128 .f32) (xo : Vec Ideal S8x128 .f32) (j : S8x128.Idx) :
    k0_pay2 (F := Ideal) x0 x1 xo j = xo j + k0_pay1 (F := Ideal) x0 x1 j := by
  unfold k0_pay2
  simp only [shapeCast_self]
  rfl

end Cert.ReferenceIdeal.RefValue

end
-- ==== Proof.LibRowMajor.lean ====
/-
  Row-major positions: re-indexing finite sums along them, and a reshape read at an index.

  A sum over `m * n` consecutive natural numbers is `m` runs of `n` (`sum_range_mul`; five levels deep in
  `sum_range_mul5`, whose position is `(((i * b + j) * c + k) * d + l) * e + m`: the row-major position of a rank-5
  index); a sum over a rank-3 index type is the triple sum over its coordinates (`sum_idx3`, beside the library's rank-2
  one); four nested sums may bring their two inner indices outside (`sum_rot4`).  A reshape read at an index is the
  operand at the index of the same row-major position, named through the inverse of the row-major bijection
  (`shapeCast_at`), so that two reshapes in a row, or a reshape of an array known only through its row-major reading,
  need no per-shape arithmetic.
-/
import Idealize.ShloMosaic.Lib.ValueIdx
import Idealize.ShloMosaic.Lib.Pipeline.Value

namespace RowMajor

open Idealize.ShloMosaic Idealize.ShloMosaic.ValueIdx
open scoped BigOperators

section Sums
variable {M : Type*} [AddCommMonoid M]

/-- A sum over `m * n` consecutive positions is the sum over `m` runs of `n`. -/
theorem sum_range_mul (f : ℕ → M) (m n : ℕ) :
    ∑ k ∈ Finset.range (m * n), f k = ∑ i ∈ Finset.range m, ∑ j ∈ Finset.range n, f (i * n + j) := by
  induction m with
  | zero => simp
  | succ m ih => rw [Nat.succ_mul, Finset.sum_range_add, ih, Finset.sum_range_succ]

/-- Five nested runs: the position of `(i, j, k, l, m)` is its row-major position in `[a, b, c, d, e]`. -/
theorem sum_range_mul5 (f : ℕ → M) (a b c d e : ℕ) :
    ∑ k ∈ Finset.range (a * b * c * d * e), f k
      = ∑ i ∈ Finset.range a, ∑ j ∈ Finset.range b, ∑ k ∈ Finset.range c, ∑ l ∈ Finset.range d,
          ∑ m ∈ Finset.range e, f ((((i * b + j) * c + k) * d + l) * e + m) := by
  rw [sum_range_mul f (a * b * c * d) e,
    sum_range_mul (fun i => ∑ m ∈ Finset.range e, f (i * e + m)) (a * b * c) d,
    sum_range_mul (fun i => ∑ l ∈ Finset.range d, ∑ m ∈ Finset.range e, f ((i * d + l) * e + m)) (a * b) c,
    sum_range_mul (fun i => ∑ k ∈ Finset.range c, ∑ l ∈ Finset.range d, ∑ m ∈ Finset.range e,
      f (((i * c + k) * d + l) * e + m)) a b]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-- Four nested sums: the two inner indices moved outside. -/
theorem sum_rot4 {α β γ δ : Type*} [Fintype α] [Fintype β] [Fintype γ] [Fintype δ] (F : α → β → γ → δ → M) :
    ∑ t, ∑ a, ∑ r, ∑ l, F t a r l = ∑ r, ∑ l, ∑ t, ∑ a, F t a r l := by
  calc ∑ t, ∑ a, ∑ r, ∑ l, F t a r l
      = ∑ t, ∑ r, ∑ a, ∑ l, F t a r l := Finset.sum_congr rfl (fun t _ => Finset.sum_comm)
    _ = ∑ r, ∑ t, ∑ a, ∑ l, F t a r l := Finset.sum_comm
    _ = ∑ r, ∑ t, ∑ l, ∑ a, F t a r l :=
        Finset.sum_congr rfl (fun r _ => Finset.sum_congr rfl (fun t _ => Finset.sum_comm))
    _ = ∑ r, ∑ l, ∑ t, ∑ a, F t a r l := Finset.sum_congr rfl (fun r _ => Finset.sum_comm)

end Sums

/-- A reshape read at an index is the operand at the index of the same row-major position. -/
theorem shapeCast_at {α : Type} {s t : Shape} (x : s.Idx → α) (h : s.ShapeCasts t) (j : t.Idx) :
    shapeCast t x h j = x (s.rowMajor.symm ⟨(t.rowMajor j).val, lt_of_lt_of_eq (t.rowMajor j).isLt h⟩) :=
  shapeCast_apply x h j _ (by rw [Equiv.apply_symm_apply])

end RowMajor
-- ==== Proof.RefValue.lean ====
/-
  The second program's value: what its run leaves in the result.

  An element of input block `t` at block row `p`, lane `l` is the argument at row-major position
  `(t * 4096 + p) * 128 + l` (the block index of grid point `t` is `t` itself; the two reshapes before the call keep
  row-major order).  So the fold of block `t` is the specification's `foldR … t`, the output's buffer after the three
  steps of a half holds the three folds added in order, the block written back at the last step of half `s` is rows
  `8 s … 8 s + 7` of the specification's `partR`, the two write-backs cover the [16, 128] array, and the host's last
  lines turn it into `resR`.
-/
import proofs.«117031_g2000302971103860_pallasbulk_1339_13_alg».proof.Proof.RefPayload
import proofs.«117031_g2000302971103860_pallasbulk_1339_13_alg».proof.Proof.LibRowMajor
import Idealize.ShloMosaic.Lib.IdealHost

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

open Cert.ReferenceIdeal.RefFrame ValueIdx RowMajor

variable (m : (ℓ : Loc nD τ sig) → Buf (Elt Ideal) ℓ) (ρ : Dev nD → PrngReg)

/-- The argument flattened and then laid out as [24576, 128], read at an index: the argument at that row-major position. -/
theorem relaid_apply (X : S16x3x256x256.Idx → EReal) (j : S24576x128.Idx) :
    shapeCast S24576x128 (shapeCast S3145728 X shapeCasts_S16x3x256x256_S3145728) shapeCasts_S3145728_S24576x128 j
      = Charb.flat X (S24576x128.rowMajor j).val := by
  have hlt : (S24576x128.rowMajor j).val < Charb.S4.numel :=
    lt_of_lt_of_eq (S24576x128.rowMajor j).isLt
      ((show S24576x128.numel = S3145728.numel from shapeCasts_S3145728_S24576x128).trans
        (show S3145728.numel = S16x3x256x256.numel from shapeCasts_S16x3x256x256_S3145728))
  unfold Charb.flat
  rw [dif_pos hlt, shapeCast_at, shapeCast_at]
  exact congrArg X (congrArg _ (Fin.ext (by rw [Equiv.apply_symm_apply])))

/-- The block indices of the three windows at each grid point. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 3 ∧ win0_2.index t (1 : Fin 2) = 0 :=
  (by decide +kernel : ∀ t : Fin grid0.N, _)

/-- The first operand of the call as the region finds it: the first argument, reshaped twice. -/
theorem V_v2 (c : Dev nD) : (V m c main_v2 : S24576x128.Idx → EReal)
    = shapeCast S24576x128 (shapeCast S3145728 (m ((c : Thread nD τ).loc main_arg0)) shapeCasts_S16x3x256x256_S3145728) shapeCasts_S3145728_S24576x128 := by
  show StableHlo.after hostOps0 (fun b => m (c, b)) (Proc.devRef .tc main_v2) = _
  after_results; rfl

/-- The second operand likewise. -/
theorem V_v3 (c : Dev nD) : (V m c main_v3 : S24576x128.Idx → EReal)
    = shapeCast S24576x128 (shapeCast S3145728 (m ((c : Thread nD τ).loc main_arg1)) shapeCasts_S16x3x256x256_S3145728) shapeCasts_S3145728_S24576x128 := by
  show StableHlo.after hostOps0 (fun b => m (c, b)) (Proc.devRef .tc main_v3) = _
  after_results; rfl

/-- An element of the first input's block at point `t`. -/
theorem iblk0_apply (c : Dev nD) (t : Fin cfg0.N) (p : Fin 4096) (l : Fin 128) :
    iblk m c 0 t (ix2 p l) = Charb.flat (m ((c : Thread nD τ).loc main_arg0)) ((t.val * 4096 + p.val) * 128 + l.val) := by
  have hN : t.val < 6 := lt_of_lt_of_eq t.isLt (show cfg0.N = 6 from N_0)
  obtain ⟨e0, e1, -⟩ := idx_in t
  unfold iblk
  rw [View.read_apply]
  have he : ((cfg0.win 0).blk t).view.emb (ix2 p l) = (ix2 ⟨t.val * 4096 + p.val, by omega⟩ l : S24576x128.Idx) := by
    funext a; apply Fin.ext
    match a with
    | ⟨0, _⟩ => show win0_0.index t (0 : Fin 2) * 4096 + 1 * p.val = t.val * 4096 + p.val; rw [e0]; omega
    | ⟨1, _⟩ => show win0_0.index t (1 : Fin 2) * 128 + 1 * l.val = l.val; rw [e1]; omega
  show (V m c main_v2 : S24576x128.Idx → EReal) (((cfg0.win 0).blk t).view.emb (ix2 p l)) = _
  rw [he, V_v2, relaid_apply, Shape.rowMajor_val_two]
  rfl

/-- An element of the second input's block at point `t`. -/
theorem iblk1_apply (c : Dev nD) (t : Fin cfg0.N) (p : Fin 4096) (l : Fin 128) :
    iblk m c 1 t (ix2 p l) = Charb.flat (m ((c : Thread nD τ).loc main_arg1)) ((t.val * 4096 + p.val) * 128 + l.val) := by
  have hN : t.val < 6 := lt_of_lt_of_eq t.isLt (show cfg0.N = 6 from N_0)
  obtain ⟨-, -, e0, e1, -⟩ := idx_in t
  unfold iblk
  rw [View.read_apply]
  have he : ((cfg0.win 1).blk t).view.emb (ix2 p l) = (ix2 ⟨t.val * 4096 + p.val, by omega⟩ l : S24576x128.Idx) := by
    funext a; apply Fin.ext
    match a with
    | ⟨0, _⟩ => show win0_1.index t (0 : Fin 2) * 4096 + 1 * p.val = t.val * 4096 + p.val; rw [e0]; omega
    | ⟨1, _⟩ => show win0_1.index t (1 : Fin 2) * 128 + 1 * l.val = l.val; rw [e1]; omega
  show (V m c main_v3 : S24576x128.Idx → EReal) (((cfg0.win 1).blk t).view.emb (ix2 p l)) = _
  rw [he, V_v3, relaid_apply, Shape.rowMajor_val_two]
  rfl

/-- The fold of two blocks that hold the arguments' elements of block `b` is the specification's fold of block `b`. -/
theorem fold_of_flat (X Y : S16x3x256x256.Idx → EReal) (b : ℕ) (x0 x1 : Vec Ideal S4096x128 .f32)
    (h0 : ∀ (p : Fin 4096) (l : Fin 128), x0 (ix2 p l) = Charb.flat X ((b * 4096 + p.val) * 128 + l.val))
    (h1 : ∀ (p : Fin 4096) (l : Fin 128), x1 (ix2 p l) = Charb.flat Y ((b * 4096 + p.val) * 128 + l.val))
    (r : Fin 8) (l : Fin 128) :
    k0_pay1 (F := Ideal) x0 x1 (ix2 r l) = Charb.foldR X Y b r.val l.val := by
  rw [pay1_apply]
  unfold Charb.foldR Charb.errR Charb.vAt Charb.eps Charb.pos
  refine Finset.sum_congr rfl fun a _ => ?_
  rw [h0, h1]

/-- The fold of the two blocks of point `t`. -/
theorem pay1_blocks (c : Dev nD) (t : Fin cfg0.N) (r : Fin 8) (l : Fin 128) :
    k0_pay1 (F := Ideal) (iblk m c 0 t) (iblk m c 1 t) (ix2 r l) = Charb.foldR (m ((c : Thread nD τ).loc main_arg0)) (m ((c : Thread nD τ).loc main_arg1)) t.val r.val l.val :=
  fold_of_flat (m ((c : Thread nD τ).loc main_arg0)) (m ((c : Thread nD τ).loc main_arg1)) t.val (iblk m c 0 t) (iblk m c 1 t) (iblk0_apply m c t) (iblk1_apply m c t) r l

/-- After a first step the output's buffer holds that step's fold. -/
theorem outsAt_first (c : Dev nD) (t : Fin cfg0.N) (h0 : t.val % 3 = 0) (r : Fin 8) (l : Fin 128) :
    outsAt m c t.val t.isLt (ix2 r l) = Charb.foldR (m ((c : Thread nD τ).loc main_arg0)) (m ((c : Thread nD τ).loc main_arg1)) t.val r.val l.val := by
  rw [outsAt_A m c t h0]
  exact (congrFun (outA_eq c (grid0.coords t) (ms0 t) (hs0 t) (ms1 t) (hs1 t) (ms2 t) (hs2 t) ((hcondA t).mpr h0) (fun h => (hcondB t).mp h h0) (iblk m c 0 t) (iblk m c 1 t)) (ix2 r l)).trans
    (pay1_blocks m c t r l)

/-- After a later step it holds what the step before left plus this step's fold. -/
theorem outsAt_later (c : Dev nD) (t : Fin cfg0.N) (h0 : ¬t.val % 3 = 0) (r : Fin 8) (l : Fin 128) :
    outsAt m c t.val t.isLt (ix2 r l)
      = outsAt m c (t.val - 1) (Nat.lt_of_le_of_lt (Nat.sub_le _ _) t.isLt) (ix2 r l) + Charb.foldR (m ((c : Thread nD τ).loc main_arg0)) (m ((c : Thread nD τ).loc main_arg1)) t.val r.val l.val := by
  rw [outsAt_B m c t h0]
  refine (congrFun (outB_eq c (grid0.coords t) (ms0 t) (hs0 t) (ms1 t) (hs1 t) (ms2 t) (hs2 t) (fun h => h0 ((hcondA t).mp h)) ((hcondB t).mpr h0) (iblk m c 0 t) (iblk m c 1 t)
    (outsAt m c (t.val - 1) (Nat.lt_of_le_of_lt (Nat.sub_le _ _) t.isLt))) (ix2 r l)).trans ?_
  rw [pay2_apply]
  exact congrArg _ (pay1_blocks m c t r l)

/-- After the last step of a half: the three folds of the half's blocks, added in order. -/
theorem outsAt_last (c : Dev nD) (t : Fin cfg0.N) (h2 : t.val % 3 = 2) (r : Fin 8) (l : Fin 128) :
    outsAt m c t.val t.isLt (ix2 r l)
      = Charb.foldR (m ((c : Thread nD τ).loc main_arg0)) (m ((c : Thread nD τ).loc main_arg1)) (t.val - 2) r.val l.val + Charb.foldR (m ((c : Thread nD τ).loc main_arg0)) (m ((c : Thread nD τ).loc main_arg1)) (t.val - 1) r.val l.val
        + Charb.foldR (m ((c : Thread nD τ).loc main_arg0)) (m ((c : Thread nD τ).loc main_arg1)) t.val r.val l.val := by
  have hN : t.val < 6 := lt_of_lt_of_eq t.isLt (show cfg0.N = 6 from N_0)
  have s1 := outsAt_later m c t (by omega) r l
  have s2 := outsAt_later m c ⟨t.val - 1, by omega⟩ (by show ¬(t.val - 1) % 3 = 0; omega) r l
  have s3 := outsAt_first m c ⟨t.val - 1 - 1, by omega⟩ (by show (t.val - 1 - 1) % 3 = 0; omega) r l
  rw [s1]
  refine congrArg (· + _) ?_
  refine s2.trans ?_
  refine congrArg (· + _) ?_
  exact s3

/-- What the last step of a half writes back is its block of the specification's partial sums. -/
theorem flushed_eq (c : Dev nD) (t : Fin cfg0.N) (hf : (cfg0.win 2).flush t = true) :
    (dats m 0 c).flushed 2 t = ((cfg0.win 2).blk t).view.read (Elt Ideal) (Charb.partR (m ((c : Thread nD τ).loc main_arg0)) (m ((c : Thread nD τ).loc main_arg1))) := by
  have h2 : t.val % 3 = 2 := (flush0_2 t).mp hf
  have hN : t.val < 6 := lt_of_lt_of_eq t.isLt (show cfg0.N = 6 from N_0)
  obtain ⟨-, -, -, -, i0, i1⟩ := idx_in t
  show (cfg0.win 2).cut (grid0.coords t) ((dats m 0 c).after 2 t) = _
  rw [after2]
  funext j
  obtain ⟨r, l, rfl⟩ : ∃ (r : Fin 8) (l : Fin 128), j = (ix2 r l : S8x128.Idx) := ⟨j 0, j 1, eq_ix2 j⟩
  rw [View.read_apply]
  show outsAt m c t.val t.isLt (ix2 r l) = Charb.partR (m ((c : Thread nD τ).loc main_arg0)) (m ((c : Thread nD τ).loc main_arg1)) (((cfg0.win 2).blk t).view.emb (ix2 r l))
  have he : ((cfg0.win 2).blk t).view.emb (ix2 r l) = (ix2 ⟨t.val / 3 * 8 + r.val, by omega⟩ l : S16x128.Idx) := by
    funext a; apply Fin.ext
    match a with
    | ⟨0, _⟩ => show win0_2.index t (0 : Fin 2) * 8 + 1 * r.val = t.val / 3 * 8 + r.val; rw [i0]; omega
    | ⟨1, _⟩ => show win0_2.index t (1 : Fin 2) * 128 + 1 * l.val = l.val; rw [i1]; omega
  rw [he, outsAt_last m c t h2 r l]
  unfold Charb.partR
  show _ = Charb.foldR _ _ ((t.val / 3 * 8 + r.val) / 8 * 3 + 0) ((t.val / 3 * 8 + r.val) % 8) l.val
    + Charb.foldR _ _ ((t.val / 3 * 8 + r.val) / 8 * 3 + 1) ((t.val / 3 * 8 + r.val) % 8) l.val
    + Charb.foldR _ _ ((t.val / 3 * 8 + r.val) / 8 * 3 + 2) ((t.val / 3 * 8 + r.val) % 8) l.val
  have hr : r.val < 8 := r.isLt
  rw [show (t.val / 3 * 8 + r.val) % 8 = r.val from by omega,
    show (t.val / 3 * 8 + r.val) / 8 * 3 + 0 = t.val - 2 from by omega,
    show (t.val / 3 * 8 + r.val) / 8 * 3 + 1 = t.val - 1 from by omega,
    show (t.val / 3 * 8 + r.val) / 8 * 3 + 2 = t.val from by omega]

/-- Membership in the output block of point `t`, axis by axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v4).slice (win0_2.rect t)).set ↔ _
  rw [View.set_slice_whole, Rect.mem_set_unit]
  exact Iff.rfl

/-- Every row of the [16, 128] array is written back by the last step of its half. -/
theorem cover (i : S16x128.Idx) : ∃ t : Fin cfg0.N, (cfg0.win 2).flush t = true ∧ i ∈ ((cfg0.win 2).blk t).view.set := by
  have hi0 : (i 0).val < 16 := (i 0).isLt
  have hi1 : (i 1).val < 128 := (i 1).isLt
  have hlt : (i 0).val / 8 * 3 + 2 < cfg0.N := by rw [show cfg0.N = 6 from N_0]; omega
  obtain ⟨-, -, -, -, e0, e1⟩ := idx_in ⟨(i 0).val / 8 * 3 + 2, hlt⟩
  refine ⟨⟨(i 0).val / 8 * 3 + 2, hlt⟩, (flush0_2 _).mpr (by show ((i 0).val / 8 * 3 + 2) % 3 = 2; omega), ?_⟩
  rw [mem_blk]
  have e0' : win0_2.index ⟨(i 0).val / 8 * 3 + 2, hlt⟩ (0 : Fin 2) = ((i 0).val / 8 * 3 + 2) / 3 := e0
  intro a
  match a with
  | ⟨0, _⟩ =>
    show win0_2.index ⟨(i 0).val / 8 * 3 + 2, hlt⟩ (0 : Fin 2) * 8 ≤ (i 0).val ∧ (i 0).val < win0_2.index ⟨(i 0).val / 8 * 3 + 2, hlt⟩ (0 : Fin 2) * 8 + 8
    rw [e0']; omega
  | ⟨1, _⟩ =>
    show win0_2.index ⟨(i 0).val / 8 * 3 + 2, hlt⟩ (1 : Fin 2) * 128 ≤ (i 1).val ∧ (i 1).val < win0_2.index ⟨(i 0).val / 8 * 3 + 2, hlt⟩ (1 : Fin 2) * 128 + 128
    rw [e1]; omega

/-- The [16, 128] array after the run: the specification's partial sums. -/
theorem final (c : Dev nD) : (dats m 0 c).arrAt 2 cfg0.N = Charb.partR (m ((c : Thread nD τ).loc main_arg0)) (m ((c : Thread nD τ).loc main_arg1)) :=
  (dats m 0 c).arrAt_eq_of_cover 2 (Charb.partR (m ((c : Thread nD τ).loc main_arg0)) (m ((c : Thread nD τ).loc main_arg1))) (fun t hf => flushed_eq m c t hf) cover

/-- The host's last lines on that array: the specification's result. -/
theorem tail_eq (c : Dev nD) :
    Pipeline.afterTail₀ cfgs (dats m) 0 (V0 m) [hostOps1] c main_v6 = Charb.resR (m ((c : Thread nD τ).loc main_arg0)) (m ((c : Thread nD τ).loc main_arg1)) := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.devRef .tc main_v4)
      = Charb.partR (m ((c : Thread nD τ).loc main_arg0)) (m ((c : Thread nD τ).loc main_arg1)) from (Pipeline.withArrays_arr spec0 launch0.win.arr_inj c _ _ 2).trans (final m c)]
  funext j
  rw [hostDivf_apply, hostReduceAdd_apply, Ideal.hostReduceAdd_total _ (fun b => b.elim0)]
  rfl

/-- The second program's run: the result is the specification's, the arguments end unchanged. -/
theorem run : θ_run defs (onTc (τ := τ) (main (F := Ideal))) ⟨m, fun _ => 0, ρ⟩ (fun r => ∀ c : Dev nD,
      r.2.mem ((c.tc : Thread nD τ).loc main_v6) = Charb.resR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.ReferenceIdeal.RefValue

end
-- ==== Proof.KerPieces.lean ====
/-
  What one grid point's body leaves behind, as values.

  The body folds its two 3072-row input blocks into one 8-row, 256-lane array (the payload `k0_pay1`: the
  lane-wise sum, over the 384 groups of eight rows, of `v * rsqrt v` with `v = (x - y)^2 + eps`).  At a point
  with second grid coordinate 0 it stores that fold into the carried 8 x 256 accumulator (`k0_pay2`, the fold
  itself).  At a point with second coordinate 1 it stores accumulator + fold, in that order (`k0_pay3`), and then
  stores the new accumulator, viewed as a 1 x 8 x 256 block, into the output block (`k0_pay4`).

  Each store covers its whole buffer through the zero-offset rectangle, and each load reads a whole buffer, so the
  contents a case leaves are exactly the stored payload over the contents the case started from.  The three
  statements below say this for the accumulator in either case and for the output block in the second case; they
  hold for any float instance.
-/
import proofs.«117031_g2000302971103860_pallasbulk_1339_13_alg».proof.Proof.Gen.KernelIdeal.Frame
import proofs.«117031_g2000302971103860_pallasbulk_1339_13_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KerPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout_A (c : Dev nD) (i : grid0.Coords) (arg2 : Memref sig .tc .vmem S3072x256 .f32) (harg2 : arg2.IsWhole) (arg3 : Memref sig .tc .vmem S3072x256 .f32) (harg3 : arg3.IsWhole) (arg4 : Memref sig .tc .vmem S1x8x256 .f32) (harg4 : arg4.IsWhole) (arg5 : Memref sig .tc .vmem S8x256 .f32) (harg5 : arg5.IsWhole) (hc0 : cond0_0 i) (hc1 : ¬cond0_1 i) (hc2 : ¬cond0_2 i)
    (x0 : Vec F S3072x256 .f32) (x1 : Vec F S3072x256 .f32) :
    sout0_A_0 c i arg2 harg2 arg3 harg3 arg4 harg4 arg5 harg5 hc0 hc1 hc2 x0 x1 = k0_pay2 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  rw [View.canon_unit_zero hz2]
  simp only [View.readAt_eq_ld, harg2.read_unread, harg3.read_unread, View.ld_unit_zero (S := S3072x256) hz2]

theorem sout_B (c : Dev nD) (i : grid0.Coords) (arg2 : Memref sig .tc .vmem S3072x256 .f32) (harg2 : arg2.IsWhole) (arg3 : Memref sig .tc .vmem S3072x256 .f32) (harg3 : arg3.IsWhole) (arg4 : Memref sig .tc .vmem S1x8x256 .f32) (harg4 : arg4.IsWhole) (arg5 : Memref sig .tc .vmem S8x256 .f32) (harg5 : arg5.IsWhole) (hc0 : ¬cond0_0 i) (hc1 : cond0_1 i) (hc2 : cond0_2 i)
    (x0 : Vec F S3072x256 .f32) (x1 : Vec F S3072x256 .f32) (xs0 : Vec F S8x256 .f32) :
    sout0_B_0 c i arg2 harg2 arg3 harg3 arg4 harg4 arg5 harg5 hc0 hc1 hc2 x0 x1 xs0 = k0_pay3 x0 x1 xs0 := by
  unfold sout0_B_0
  rw [View.read_writes_eq_canon _ _ _ (scover0_B_0 c i arg2 harg2 arg3 harg3 arg4 harg4 arg5 harg5 hc0 hc1 hc2 x0 x1 xs0)]
  unfold kernelRun0_B
  dsimp only
  sl_unfold_words
  rw [View.canon_unit_zero hz2]
  simp only [View.readAt_eq_ld, harg2.read_unread, harg3.read_unread, harg5.read_unread,
    View.ld_unit_zero (S := S3072x256) hz2, View.ld_unit_zero (S := S8x256) hz2]

theorem out_B (c : Dev nD) (i : grid0.Coords) (arg2 : Memref sig .tc .vmem S3072x256 .f32) (harg2 : arg2.IsWhole) (arg3 : Memref sig .tc .vmem S3072x256 .f32) (harg3 : arg3.IsWhole) (arg4 : Memref sig .tc .vmem S1x8x256 .f32) (harg4 : arg4.IsWhole) (arg5 : Memref sig .tc .vmem S8x256 .f32) (harg5 : arg5.IsWhole) (hc0 : ¬cond0_0 i) (hc1 : cond0_1 i) (hc2 : cond0_2 i)
    (x0 : Vec F S3072x256 .f32) (x1 : Vec F S3072x256 .f32) (xs0 : Vec F S8x256 .f32) :
    out0_B_2 c i arg2 harg2 arg3 harg3 arg4 harg4 arg5 harg5 hc0 hc1 hc2 x0 x1 xs0 = k0_pay4 (k0_pay3 x0 x1 xs0) := by
  unfold out0_B_2
  rw [View.read_writes_eq_canon _ _ _ (cover0_B_2 c i arg2 harg2 arg3 harg3 arg4 harg4 arg5 harg5 hc0 hc1 hc2 x0 x1 xs0)]
  unfold kernelRun0_B
  dsimp only
  sl_unfold_words
  rw [View.canon_unit_zero hz3, View.readCov_unit_zero (S := S8x256) _ hz2]
  simp only [View.readAt_eq_ld, harg2.read_unread, harg3.read_unread, harg5.read_unread,
    View.ld_unit_zero (S := S3072x256) hz2, View.ld_unit_zero (S := S8x256) hz2]

end Cert.KernelIdeal.KerPieces
end
-- ==== Proof.KerPayload.lean ====
/-
  The first program's kernel body as arithmetic, at the ideal instance (a float an extended real, every operation exact).

  The body's fold of its two 3072-row blocks is, at row `r` and lane `l` of the 8 x 256 result, the sum over the 384
  groups `a` of eight rows of the error at block row `a * 8 + r`, lane `l`; the error of a pair of entries `x`, `y`
  is `v * rsqrt v` with `v = (x - y) * (x - y) + eps`.  Regrouping the block's rows eight at a time keeps each
  element's row-major position, which is why group `a`, row `r` is block row `a * 8 + r`.

  The other payloads are that fold itself (stored at a half's first point), the accumulator plus the fold in that
  order (stored at its second point), and the accumulator viewed with a leading unit axis (the output block).
-/
import proofs.«117031_g2000302971103860_pallasbulk_1339_13_alg».proof.Proof.Gen.KernelIdeal.Frame
import proofs.«117031_g2000302971103860_pallasbulk_1339_13_alg».proof.Proof.Spec
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.KerPayload

open Cert.KernelIdeal Cert.KernelIdeal.Gen Idealize.ShloMosaic.ValueIdx

/-- The error at row `q`, lane `l` of a pair of blocks: `v * rsqrt v` with `v = (x - y)^2 + eps`. -/
def errAt (X0 X1 : S3072x256.Idx → EReal) (q : Fin 3072) (l : Fin 256) : EReal :=
  ((X0 (ix2 q l) - X1 (ix2 q l)) * (X0 (ix2 q l) - X1 (ix2 q l)) + Charb.eps)
    * Ideal.rsqrt ((X0 (ix2 q l) - X1 (ix2 q l)) * (X0 (ix2 q l) - X1 (ix2 q l)) + Charb.eps)

/-- Row `r` of group `a` is a row of the block. -/
theorem row_lt (a : Fin 384) (r : Fin 8) : a.val * 8 + r.val < 3072 := by
  have := a.isLt; have := r.isLt; omega

/-- The fold of two blocks at row `r`, lane `l`: the sum, over the 384 groups `a` of eight rows, of the error at row
    `a * 8 + r`, lane `l` (regrouping [3072, 256] as [384, 8, 256] keeps row-major order). -/
theorem pay1_apply (X0 X1 : Vec Ideal S3072x256 .f32) (r : Fin 8) (l : Fin 256) :
    k0_pay1 (F := Ideal) X0 X1 (ix2 r l) = ∑ a : Fin 384, errAt X0 X1 ⟨a.val * 8 + r.val, row_lt a r⟩ l := by
  unfold k0_pay1
  dsimp only
  refine (Ideal.multiReduction_add_single _ _ _ _ _ (ix2 r l)).trans ?_
  refine Finset.sum_congr rfl fun a _ => ?_
  refine (shapeCast_apply _ _ _ (ix2 ⟨a.val * 8 + r.val, row_lt a r⟩ l) ?_).trans ?_
  · rw [Shape.rowMajor_val_two, Shape.rowMajor_val_three]
    show (a.val * 8 + r.val) * 256 + l.val = (a.val * 8 + r.val) * 256 + l.val
    rfl
  · simp only [shapeCast_self]
    rfl

/-- What a point of the first kind stores in the accumulator: the fold. -/
theorem pay2_apply (X0 X1 : Vec Ideal S3072x256 .f32) (j : S8x256.Idx) :
    k0_pay2 (F := Ideal) X0 X1 j = k0_pay1 (F := Ideal) X0 X1 j := by
  unfold k0_pay2
  simp only [shapeCast_self]

/-- What a point of the second kind stores in the accumulator: its previous contents plus the fold, in that order. -/
theorem pay3_apply (X0 X1 : Vec Ideal S3072x256 .f32) (v : Vec Ideal S8x256 .f32) (j : S8x256.Idx) :
    k0_pay3 (F := Ideal) X0 X1 v j = v j + k0_pay1 (F := Ideal) X0 X1 j := by
  unfold k0_pay3
  simp only [shapeCast_self]
  rfl

/-- What it then stores in the output block: the accumulator, as a [1, 8, 256] block. -/
theorem pay4_apply (v : Vec Ideal S8x256 .f32) (u : Fin 1) (r : Fin 8) (l : Fin 256) :
    k0_pay4 (F := Ideal) v (ix3 u r l) = v (ix2 r l) := by
  unfold k0_pay4
  exact shapeCast_ab_1ab_apply v _ u r l

end Cert.KernelIdeal.KerPayload
end
-- ==== Proof.KerPoints.lean ====
/-
  The first program's grid, point by point, and the array it leaves.

  Grid point `t` (of four, in order) reads block `t` of each input: 3072 rows of the argument laid out as
  [12288, 256], so block row `p`, lane `l` is the argument's element at row-major position
  `(t * 3072 + p) * 256 + l` (the reshape before the call keeps row-major position).  Hence the body's fold of the
  two blocks at point `t` is the specification's fold of block `t`.

  The points come in pairs, one pair per half `s`: point `2 s` sets the carried accumulator to its fold, point
  `2 s + 1` adds its own fold to it and copies the accumulator into the output block, which is then written back as
  block `s` of the [2, 8, 256] result.  So after an even point the accumulator is that point's fold, after an odd
  point it is the previous fold plus this one, the block written back at point `2 s + 1` is block `s` of the
  specification's partial sums, the two write-backs cover the result array, and the array ends at those partial sums.
-/
import proofs.«117031_g2000302971103860_pallasbulk_1339_13_alg».proof.Proof.KerPieces
import proofs.«117031_g2000302971103860_pallasbulk_1339_13_alg».proof.Proof.KerPayload
import proofs.«117031_g2000302971103860_pallasbulk_1339_13_alg».proof.Proof.LibRowMajor
import Idealize.ShloMosaic.Lib.Pipeline.Value
import Idealize.ShloMosaic.Lib.StableHlo.Run
import Idealize.ShloMosaic.Lib.Tactic

set_option maxRecDepth 16384

noncomputable section

namespace Cert.KernelIdeal.KerPoints

open Idealize.ShloMosaic Idealize.ShloMosaic.TcCoe Idealize.ShloMosaic.Tactic Idealize.SL.Sem
open Idealize.ShloMosaic.Pipeline (Dat)
open Cert.KernelIdeal Cert.KernelIdeal.Gen
open Cert.KernelIdeal.KerPieces Cert.KernelIdeal.KerPayload ValueIdx RowMajor

variable (m : (ℓ : Loc nD τ sig) → Buf (Elt Ideal) ℓ)

/-- An argument laid out as [12288, 256], read at an index: the argument at that row-major position. -/
theorem relaid_apply (X : S16x3x256x256.Idx → EReal) (j : S12288x256.Idx) :
    shapeCast S12288x256 X shapeCasts_S16x3x256x256_S12288x256 j = Charb.flat X (S12288x256.rowMajor j).val := by
  have hlt : (S12288x256.rowMajor j).val < Charb.S4.numel :=
    lt_of_lt_of_eq (S12288x256.rowMajor j).isLt
      (show S12288x256.numel = S16x3x256x256.numel from shapeCasts_S16x3x256x256_S12288x256)
  unfold Charb.flat
  rw [dif_pos hlt, shapeCast_at]

/-- The block indices of the three windows at each grid point: input block `t`; output block `t / 2`. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 2 ∧ win0_2.index t (1 : Fin 3) = 0 ∧ win0_2.index t (2 : Fin 3) = 0 :=
  (by decide +kernel : ∀ t : Fin grid0.N, _)

/-- The first operand of the call as the region finds it: the first argument, reshaped. -/
theorem V_v0 (c : Dev nD) : (V m c main_v0 : S12288x256.Idx → EReal)
    = shapeCast S12288x256 (m ((c : Thread nD τ).loc main_arg0)) shapeCasts_S16x3x256x256_S12288x256 := by
  show StableHlo.after hostOps0 (fun b => m (c, b)) (Proc.devRef .tc main_v0) = _
  after_results; rfl

/-- The second operand likewise. -/
theorem V_v1 (c : Dev nD) : (V m c main_v1 : S12288x256.Idx → EReal)
    = shapeCast S12288x256 (m ((c : Thread nD τ).loc main_arg1)) shapeCasts_S16x3x256x256_S12288x256 := by
  show StableHlo.after hostOps0 (fun b => m (c, b)) (Proc.devRef .tc main_v1) = _
  after_results; rfl

/-- An element of the first input's block at point `t`: the argument at row-major position
    `(t * 3072 + p) * 256 + l`. -/
theorem iblk0_apply (c : Dev nD) (t : Fin cfg0.N) (p : Fin 3072) (l : Fin 256) :
    iblk m c 0 t (ix2 p l) = Charb.flat (m ((c : Thread nD τ).loc main_arg0)) ((t.val * 3072 + p.val) * 256 + l.val) := by
  have hN : t.val < 4 := lt_of_lt_of_eq t.isLt (show cfg0.N = 4 from N_0)
  obtain ⟨e0, e1, -⟩ := idx_in t
  unfold iblk
  rw [View.read_apply]
  have he : ((cfg0.win 0).blk t).view.emb (ix2 p l) = (ix2 ⟨t.val * 3072 + p.val, by omega⟩ l : S12288x256.Idx) := by
    funext a; apply Fin.ext
    match a with
    | ⟨0, _⟩ => show win0_0.index t (0 : Fin 2) * 3072 + 1 * p.val = t.val * 3072 + p.val; rw [e0]; omega
    | ⟨1, _⟩ => show win0_0.index t (1 : Fin 2) * 256 + 1 * l.val = l.val; rw [e1]; omega
  show (V m c main_v0 : S12288x256.Idx → EReal) (((cfg0.win 0).blk t).view.emb (ix2 p l)) = _
  rw [he, V_v0, relaid_apply, Shape.rowMajor_val_two]
  rfl

/-- An element of the second input's block at point `t`. -/
theorem iblk1_apply (c : Dev nD) (t : Fin cfg0.N) (p : Fin 3072) (l : Fin 256) :
    iblk m c 1 t (ix2 p l) = Charb.flat (m ((c : Thread nD τ).loc main_arg1)) ((t.val * 3072 + p.val) * 256 + l.val) := by
  have hN : t.val < 4 := lt_of_lt_of_eq t.isLt (show cfg0.N = 4 from N_0)
  obtain ⟨-, -, e0, e1, -⟩ := idx_in t
  unfold iblk
  rw [View.read_apply]
  have he : ((cfg0.win 1).blk t).view.emb (ix2 p l) = (ix2 ⟨t.val * 3072 + p.val, by omega⟩ l : S12288x256.Idx) := by
    funext a; apply Fin.ext
    match a with
    | ⟨0, _⟩ => show win0_1.index t (0 : Fin 2) * 3072 + 1 * p.val = t.val * 3072 + p.val; rw [e0]; omega
    | ⟨1, _⟩ => show win0_1.index t (1 : Fin 2) * 256 + 1 * l.val = l.val; rw [e1]; omega
  show (V m c main_v1 : S12288x256.Idx → EReal) (((cfg0.win 1).blk t).view.emb (ix2 p l)) = _
  rw [he, V_v1, relaid_apply, Shape.rowMajor_val_two]
  rfl

/-- The fold of two blocks that hold the arguments' elements of block `b` is the specification's fold of block `b`. -/
theorem fold_of_flat (X Y : S16x3x256x256.Idx → EReal) (b : ℕ) (x0 x1 : Vec Ideal S3072x256 .f32)
    (h0 : ∀ (p : Fin 3072) (l : Fin 256), x0 (ix2 p l) = Charb.flat X ((b * 3072 + p.val) * 256 + l.val))
    (h1 : ∀ (p : Fin 3072) (l : Fin 256), x1 (ix2 p l) = Charb.flat Y ((b * 3072 + p.val) * 256 + l.val))
    (r : Fin 8) (l : Fin 256) :
    k0_pay1 (F := Ideal) x0 x1 (ix2 r l) = Charb.foldK X Y b r.val l.val := by
  rw [pay1_apply]
  unfold Charb.foldK Charb.errK Charb.vAt Charb.pos errAt
  refine Finset.sum_congr rfl fun a _ => ?_
  rw [h0, h1]

/-- The fold of the two blocks of point `t`. -/
theorem pay1_blocks (c : Dev nD) (t : Fin cfg0.N) (r : Fin 8) (l : Fin 256) :
    k0_pay1 (F := Ideal) (iblk m c 0 t) (iblk m c 1 t) (ix2 r l) = Charb.foldK (m ((c : Thread nD τ).loc main_arg0)) (m ((c : Thread nD τ).loc main_arg1)) t.val r.val l.val :=
  fold_of_flat (m ((c : Thread nD τ).loc main_arg0)) (m ((c : Thread nD τ).loc main_arg1)) t.val (iblk m c 0 t) (iblk m c 1 t) (iblk0_apply m c t) (iblk1_apply m c t) r l

/-- At a half's second point the output block is the new accumulator viewed with a leading unit axis (any float
    instance; stated over arbitrary buffers and contents). -/
theorem out_B_acc {F : FTy → Type} [FloatOps F] (c : Dev nD) (i : grid0.Coords) (arg2 : Memref sig .tc .vmem S3072x256 .f32) (harg2 : arg2.IsWhole) (arg3 : Memref sig .tc .vmem S3072x256 .f32) (harg3 : arg3.IsWhole) (arg4 : Memref sig .tc .vmem S1x8x256 .f32) (harg4 : arg4.IsWhole) (arg5 : Memref sig .tc .vmem S8x256 .f32) (harg5 : arg5.IsWhole) (hc0 : ¬cond0_0 i) (hc1 : cond0_1 i) (hc2 : cond0_2 i)
    (x0 : Vec F S3072x256 .f32) (x1 : Vec F S3072x256 .f32) (xs0 : Vec F S8x256 .f32) :
    out0_B_2 c i arg2 harg2 arg3 harg3 arg4 harg4 arg5 harg5 hc0 hc1 hc2 x0 x1 xs0
      = k0_pay4 (sout0_B_0 c i arg2 harg2 arg3 harg3 arg4 harg4 arg5 harg5 hc0 hc1 hc2 x0 x1 xs0) :=
  (out_B c i arg2 harg2 arg3 harg3 arg4 harg4 arg5 harg5 hc0 hc1 hc2 x0 x1 xs0).trans
    (congrArg k0_pay4 (sout_B c i arg2 harg2 arg3 harg3 arg4 harg4 arg5 harg5 hc0 hc1 hc2 x0 x1 xs0).symm)

/-- After a half's first point the accumulator holds that point's fold. -/
theorem acc_even (c : Dev nD) (t : Fin cfg0.N) (h0 : t.val % 2 = 0) (r : Fin 8) (l : Fin 256) :
    (outsAt0 m c t.val t.isLt).2 (ix2 r l) = Charb.foldK (m ((c : Thread nD τ).loc main_arg0)) (m ((c : Thread nD τ).loc main_arg1)) t.val r.val l.val := by
  have h1 : ¬t.val % 2 = 1 := by omega
  refine (congrFun ((congrArg Prod.snd (outsAt0_A m c t h0 h1 h1)).trans
    (sout_A c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (fun h => h1 ((hcond0_2 t).mp h)) (iblk m c 0 t) (iblk m c 1 t))) (ix2 r l)).trans ?_
  exact (pay2_apply (iblk m c 0 t) (iblk m c 1 t) (ix2 r l)).trans (pay1_blocks m c t r l)

/-- After a half's second point it holds the first point's fold plus the second's, in that order. -/
theorem acc_odd (c : Dev nD) (t : Fin cfg0.N) (h1 : t.val % 2 = 1) (r : Fin 8) (l : Fin 256) :
    (outsAt0 m c t.val t.isLt).2 (ix2 r l) = Charb.foldK (m ((c : Thread nD τ).loc main_arg0)) (m ((c : Thread nD τ).loc main_arg1)) (t.val - 1) r.val l.val + Charb.foldK (m ((c : Thread nD τ).loc main_arg0)) (m ((c : Thread nD τ).loc main_arg1)) t.val r.val l.val := by
  have h0 : ¬t.val % 2 = 0 := by omega
  have hN : t.val < 4 := lt_of_lt_of_eq t.isLt (show cfg0.N = 4 from N_0)
  refine (congrFun ((congrArg Prod.snd (outsAt0_B m c t h0 h1 h1)).trans
    (sout_B c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) ((hcond0_2 t).mpr h1) (iblk m c 0 t) (iblk m c 1 t)
      (outsAt0 m c (t.val - 1) (Nat.lt_of_le_of_lt (Nat.sub_le _ _) t.isLt)).2)) (ix2 r l)).trans ?_
  refine (pay3_apply (iblk m c 0 t) (iblk m c 1 t) _ (ix2 r l)).trans ?_
  have s := acc_even m c ⟨t.val - 1, by omega⟩ (by show (t.val - 1) % 2 = 0; omega) r l
  exact congrArg₂ (· + ·) s (pay1_blocks m c t r l)

/-- So after a half's second point the output block is the accumulator with a leading unit axis. -/
theorem fst_eq_pay4_snd (c : Dev nD) (t : Fin cfg0.N) (h1 : t.val % 2 = 1) :
    (outsAt0 m c t.val t.isLt).1 = k0_pay4 (outsAt0 m c t.val t.isLt).2 := by
  have h0 : ¬t.val % 2 = 0 := by omega
  rw [outsAt0_B m c t h0 h1 h1]
  dsimp only
  exact out_B_acc c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) ((hcond0_2 t).mpr h1) (iblk m c 0 t) (iblk m c 1 t)
    (outsAt0 m c (t.val - 1) (Nat.lt_of_le_of_lt (Nat.sub_le _ _) t.isLt)).2

/-- And it then holds the same two folds added. -/
theorem out_odd (c : Dev nD) (t : Fin cfg0.N) (h1 : t.val % 2 = 1) (u : Fin 1) (r : Fin 8) (l : Fin 256) :
    (outsAt0 m c t.val t.isLt).1 (ix3 u r l) = Charb.foldK (m ((c : Thread nD τ).loc main_arg0)) (m ((c : Thread nD τ).loc main_arg1)) (t.val - 1) r.val l.val + Charb.foldK (m ((c : Thread nD τ).loc main_arg0)) (m ((c : Thread nD τ).loc main_arg1)) t.val r.val l.val :=
  (congrFun (fst_eq_pay4_snd m c t h1) (ix3 u r l)).trans
    ((pay4_apply (outsAt0 m c t.val t.isLt).2 u r l).trans (acc_odd m c t h1 r l))

/-- What the second point of half `s` writes back is block `s` of the specification's partial sums. -/
theorem flushed_eq (c : Dev nD) (t : Fin cfg0.N) (hf : (cfg0.win 2).flush t = true) :
    (dats m 0 c).flushed 2 t = ((cfg0.win 2).blk t).view.read (Elt Ideal) (Charb.partK (m ((c : Thread nD τ).loc main_arg0)) (m ((c : Thread nD τ).loc main_arg1))) := by
  have h1 : t.val % 2 = 1 := (flush0_2 t).mp hf
  have hN : t.val < 4 := lt_of_lt_of_eq t.isLt (show cfg0.N = 4 from N_0)
  obtain ⟨-, -, -, -, i0, i1, i2⟩ := idx_in t
  show (cfg0.win 2).cut (grid0.coords t) ((dats m 0 c).after 2 t) = _
  rw [after0_2]
  funext j
  obtain ⟨u, r, l, rfl⟩ : ∃ (u : Fin 1) (r : Fin 8) (l : Fin 256), j = (ix3 u r l : S1x8x256.Idx) := ⟨j 0, j 1, j 2, eq_ix3 j⟩
  rw [View.read_apply]
  show (outsAt0 m c t.val t.isLt).1 (ix3 u r l) = Charb.partK (m ((c : Thread nD τ).loc main_arg0)) (m ((c : Thread nD τ).loc main_arg1)) (((cfg0.win 2).blk t).view.emb (ix3 u r l))
  have hu : u.val = 0 := by omega
  have he : ((cfg0.win 2).blk t).view.emb (ix3 u r l) = (ix3 ⟨t.val / 2, by omega⟩ r l : S2x8x256.Idx) := by
    funext a; apply Fin.ext
    match a with
    | ⟨0, _⟩ => show win0_2.index t (0 : Fin 3) * 1 + 1 * u.val = t.val / 2; rw [i0]; omega
    | ⟨1, _⟩ => show win0_2.index t (1 : Fin 3) * 8 + 1 * r.val = r.val; rw [i1]; omega
    | ⟨2, _⟩ => show win0_2.index t (2 : Fin 3) * 256 + 1 * l.val = l.val; rw [i2]; omega
  rw [he, out_odd m c t h1 u r l]
  unfold Charb.partK
  show _ = Charb.foldK _ _ (t.val / 2 * 2 + 0) r.val l.val + Charb.foldK _ _ (t.val / 2 * 2 + 1) r.val l.val
  rw [show t.val / 2 * 2 + 0 = t.val - 1 from by omega, show t.val / 2 * 2 + 1 = t.val from by omega]

/-- Membership in the output block of point `t`, axis by axis. -/
theorem mem_blk (t : Fin cfg0.N) (i : S2x8x256.Idx) :
    i ∈ ((cfg0.win 2).blk t).view.set ↔ ∀ a : Fin 3, win0_2.index t a * S1x8x256.size a ≤ (i a).val ∧ (i a).val < win0_2.index t a * S1x8x256.size a + S1x8x256.size a := by
  show i ∈ ((View.whole main_v2).slice (win0_2.rect t)).set ↔ _
  rw [View.set_slice_whole, Rect.mem_set_unit]
  exact Iff.rfl

/-- Every entry of the [2, 8, 256] array is written back by the second point of its half. -/
theorem cover (i : S2x8x256.Idx) : ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 256 := (i 2).isLt
  have hlt : (i 0).val * 2 + 1 < cfg0.N := by rw [show cfg0.N = 4 from N_0]; omega
  obtain ⟨-, -, -, -, e0, e1, e2⟩ := idx_in ⟨(i 0).val * 2 + 1, hlt⟩
  refine ⟨⟨(i 0).val * 2 + 1, hlt⟩, (flush0_2 _).mpr (by show ((i 0).val * 2 + 1) % 2 = 1; omega), ?_⟩
  rw [mem_blk]
  have e0' : win0_2.index ⟨(i 0).val * 2 + 1, hlt⟩ (0 : Fin 3) = ((i 0).val * 2 + 1) / 2 := e0
  intro a
  match a with
  | ⟨0, _⟩ =>
    show win0_2.index ⟨(i 0).val * 2 + 1, hlt⟩ (0 : Fin 3) * 1 ≤ (i 0).val ∧ (i 0).val < win0_2.index ⟨(i 0).val * 2 + 1, hlt⟩ (0 : Fin 3) * 1 + 1
    rw [e0']; omega
  | ⟨1, _⟩ =>
    show win0_2.index ⟨(i 0).val * 2 + 1, hlt⟩ (1 : Fin 3) * 8 ≤ (i 1).val ∧ (i 1).val < win0_2.index ⟨(i 0).val * 2 + 1, hlt⟩ (1 : Fin 3) * 8 + 8
    rw [e1]; omega
  | ⟨2, _⟩ =>
    show win0_2.index ⟨(i 0).val * 2 + 1, hlt⟩ (2 : Fin 3) * 256 ≤ (i 2).val ∧ (i 2).val < win0_2.index ⟨(i 0).val * 2 + 1, hlt⟩ (2 : Fin 3) * 256 + 256
    rw [e2]; omega

/-- The [2, 8, 256] array after the run: the specification's partial sums. -/
theorem final (c : Dev nD) : (dats m 0 c).arrAt 2 cfg0.N = Charb.partK (m ((c : Thread nD τ).loc main_arg0)) (m ((c : Thread nD τ).loc main_arg1)) :=
  (dats m 0 c).arrAt_eq_of_cover 2 (Charb.partK (m ((c : Thread nD τ).loc main_arg0)) (m ((c : Thread nD τ).loc main_arg1))) (fun t hf => flushed_eq m c t hf) cover

end Cert.KernelIdeal.KerPoints
end
-- ==== Proof.KerValue.lean ====
/-
  The first program's value: what its run leaves in the result.

  After the kernel the [2, 8, 256] array holds the specification's partial sums (one 8 x 256 block per half: the
  folds of the half's two input blocks, added in order).  The host then adds every entry of that array to the
  constant 0.0 and divides by the constant 3145728.0, the number of elements of an argument; read at the ideal
  instance the sum over all three axes is the initial value plus the sum over every index, and the division is the
  exact one, so the result is the specification's mean of the partial sums.  The run of the whole program therefore
  ends with that value in its result and with both arguments unchanged.
-/
import proofs.«117031_g2000302971103860_pallasbulk_1339_13_alg».proof.Proof.KerPoints
import Idealize.ShloMosaic.Lib.IdealHost

set_option maxRecDepth 16384

noncomputable section

namespace Cert.KernelIdeal.KerValue

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.KerPoints ValueIdx

variable (m : (ℓ : Loc nD τ sig) → Buf (Elt Ideal) ℓ) (ρ : Dev nD → PrngReg)

/-- The host's last lines on the result array: the specification's mean of the partial sums. -/
theorem tail_eq (c : Dev nD) :
    Pipeline.afterTail₀ cfgs (dats m) 0 (V0 m) [hostOps1] c main_v4 = Charb.resK (m ((c : Thread nD τ).loc main_arg0)) (m ((c : Thread nD τ).loc main_arg1)) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v2)
      = Charb.partK (m ((c : Thread nD τ).loc main_arg0)) (m ((c : Thread nD τ).loc main_arg1)) from (Pipeline.withArrays_arr spec0 launch0.win.arr_inj c _ _ 2).trans (final m c)]
  funext j
  rw [hostDivf_apply, hostReduceAdd_apply, Ideal.hostReduceAdd_total _ (fun b => b.elim0)]
  rfl

/-- The first program's run: the result is the specification's, the arguments end unchanged. -/
theorem run : θ_run (defs (F := Ideal)) (onTc (τ := τ) (main (F := Ideal))) ⟨m, fun _ => 0, ρ⟩ (fun r => ∀ c : Dev nD,
      r.2.mem ((c.tc : Thread nD τ).loc main_v4) = Charb.resK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KerValue
end
-- ==== Proof.Algebra.lean ====
/-
  The algebra behind the equivalence, on Mathlib's extended reals.

  Three facts. (1) At every position the two error formulas agree when the arguments are real: with
  `v = (x - y)^2 + eps` a positive real, `v * (√v)⁻¹ = √v`. This is the only use of finiteness: at `v = ⊤` the
  left side would be `⊤ * 0 = 0`. (2), (3) Each program's partial sums add up to the sum of its error over all
  3145728 row-major positions: its layout (halves, blocks, folds of eight rows, lanes) is a way of writing each
  position exactly once, `3145728 = 2 * 2 * 384 * 8 * 256 = 2 * 3 * 512 * 8 * 128`, and a finite sum in a
  commutative monoid does not depend on the order or grouping of its terms. Both are proved for an arbitrary
  function of the position. (4) Hence the two means are equal.
-/
import proofs.«117031_g2000302971103860_pallasbulk_1339_13_alg».proof.Proof.Spec
import proofs.«117031_g2000302971103860_pallasbulk_1339_13_alg».proof.Proof.LibRowMajor

noncomputable section

namespace Charb

open Idealize.ShloMosaic
open Idealize.ShloMosaic.ValueIdx
open RowMajor
open scoped BigOperators

/-! ## The two error formulas agree on real arguments -/

/-- The additive constant is a positive real: its pattern has sign bit 0, exponent field 107 and
    significand field 407485, so it denotes (2^23 + 407485) * 2^(107 - 127 - 23). -/
theorem eps_pos_real : ∃ e : ℝ, 0 < e ∧ eps = (e : EReal) := by
  have h1 : ((0x358637BD#32).extractLsb' 23 8).toNat = 107 := by decide
  have h2 : ((0x358637BD#32).extractLsb' 0 23).toNat = 407485 := by decide
  have h3 : ((0x358637BD#32).extractLsb' (8 + 23) 1 == 1#1) = false := by decide
  refine ⟨(1 : ℝ) * ((2 ^ 23 + 407485 : ℕ) : ℝ) * (2 : ℝ) ^ (((107 : ℕ) : ℤ) - (2 ^ (8 - 1) - 1) - (23 : ℕ)), ?_, ?_⟩
  · positivity
  · simp only [eps, Ideal.ofBits, Ideal.ieee, h1, h2, h3]
    norm_num

/-- An argument read at a position is a real number: an entry, or zero past the end. -/
theorem flat_real (x : S4.Idx → EReal) (hx : Finite x) (k : ℕ) : ∃ r : ℝ, flat x k = (r : EReal) := by
  unfold flat
  split_ifs with h
  · exact hx _
  · exact ⟨0, by simp⟩

/-- For a positive real `r`, `r * (√r)⁻¹ = √r`. -/
theorem mul_rsqrt_eq_sqrt (r : ℝ) (hr : 0 < r) :
    (r : EReal) * Ideal.rsqrt (r : EReal) = Ideal.sqrt (r : EReal) := by
  have hs : 0 < Real.sqrt r := Real.sqrt_pos.mpr hr
  rw [Ideal.rsqrt_coe, Ideal.sqrt_coe, if_neg (not_lt.mpr hr.le), if_neg hr.ne', if_neg (not_lt.mpr hr.le),
    ← EReal.coe_mul]
  congr 1
  calc r * (Real.sqrt r)⁻¹ = (Real.sqrt r * Real.sqrt r) * (Real.sqrt r)⁻¹ := by rw [Real.mul_self_sqrt hr.le]
    _ = Real.sqrt r := by rw [mul_assoc, mul_inv_cancel₀ hs.ne', mul_one]

theorem errK_eq_errR (x y : S4.Idx → EReal) (hx : Finite x) (hy : Finite y) (k : ℕ) :
    errK x y k = errR x y k := by
  obtain ⟨a, ha⟩ := flat_real x hx k
  obtain ⟨b, hb⟩ := flat_real y hy k
  obtain ⟨e, he, hee⟩ := eps_pos_real
  have hv : vAt x y k = (((a - b) * (a - b) + e : ℝ) : EReal) := by
    unfold vAt
    rw [ha, hb, hee, EReal.coe_add, EReal.coe_mul, EReal.coe_sub]
  unfold errK errR
  rw [hv]
  exact mul_rsqrt_eq_sqrt _ (add_pos_of_nonneg_of_pos (mul_self_nonneg _) he)

/-! ## Re-indexing finite sums -/

section Sums
variable {M : Type*} [AddCommMonoid M]

/-- Sixteen rows are two halves of eight: row `q` is row `q % 8` of half `q / 8`. -/
theorem sum_fin16 (H : ℕ → ℕ → M) :
    ∑ q : Fin 16, H (q.val / 8) (q.val % 8) = ∑ s : Fin 2, ∑ r : Fin 8, H s.val r.val := by
  rw [Fin.sum_univ_eq_sum_range (fun q => H (q / 8) (q % 8)) 16, show (16 : ℕ) = 2 * 8 from rfl,
    sum_range_mul, Finset.sum_range]
  refine Finset.sum_congr rfl (fun s _ => ?_)
  rw [Finset.sum_range]
  refine Finset.sum_congr rfl (fun r _ => ?_)
  have h1 : (s.val * 8 + r.val) / 8 = s.val := by omega
  have h2 : (s.val * 8 + r.val) % 8 = r.val := by omega
  rw [h1, h2]

end Sums

section Layouts
variable {M : Type*} [AddCommMonoid M]

/-- The first layout: 2 halves of 2 blocks of 384 folds of 8 rows of 256 lanes exhaust the 3145728 positions,
    each exactly once. -/
theorem sum_layoutK (f : ℕ → M) :
    ∑ j : SK.Idx, ((∑ a : Fin 384, f (pos 3072 256 ((j 0).val * 2 + 0) a.val (j 1).val (j 2).val))
        + ∑ a : Fin 384, f (pos 3072 256 ((j 0).val * 2 + 1) a.val (j 1).val (j 2).val))
      = ∑ k ∈ Finset.range 3145728, f k := by
  rw [show (3145728 : ℕ) = 2 * 2 * 384 * 8 * 256 from by norm_num, sum_range_mul5]
  simp only [Finset.sum_range]
  rw [sum_idx3]
  refine Finset.sum_congr rfl (fun s _ => ?_)
  rw [sum_rot4]
  refine Finset.sum_congr rfl (fun r _ => Finset.sum_congr rfl (fun l _ => ?_))
  rw [Fin.sum_univ_two]
  show (∑ a : Fin 384, f (pos 3072 256 (s.val * 2 + 0) a.val r.val l.val))
      + (∑ a : Fin 384, f (pos 3072 256 (s.val * 2 + 1) a.val r.val l.val)) = _
  congr 1
  · refine Finset.sum_congr rfl (fun a _ => ?_)
    congr 1
    simp only [pos, Fin.val_zero]
    omega
  · refine Finset.sum_congr rfl (fun a _ => ?_)
    congr 1
    simp only [pos, Fin.val_one]
    omega

/-- The second layout: 2 halves of 3 blocks of 512 folds of 8 rows of 128 lanes exhaust the same positions. -/
theorem sum_layoutR (f : ℕ → M) :
    ∑ j : SR.Idx, ((∑ a : Fin 512, f (pos 4096 128 ((j 0).val / 8 * 3 + 0) a.val ((j 0).val % 8) (j 1).val))
        + (∑ a : Fin 512, f (pos 4096 128 ((j 0).val / 8 * 3 + 1) a.val ((j 0).val % 8) (j 1).val))
        + ∑ a : Fin 512, f (pos 4096 128 ((j 0).val / 8 * 3 + 2) a.val ((j 0).val % 8) (j 1).val))
      = ∑ k ∈ Finset.range 3145728, f k := by
  rw [show (3145728 : ℕ) = 2 * 3 * 512 * 8 * 128 from by norm_num, sum_range_mul5]
  simp only [Finset.sum_range]
  rw [sum_idx2]
  refine (sum_fin16 (fun s r => ∑ l : Fin 128,
      ((∑ a : Fin 512, f (pos 4096 128 (s * 3 + 0) a.val r l.val))
        + (∑ a : Fin 512, f (pos 4096 128 (s * 3 + 1) a.val r l.val))
        + ∑ a : Fin 512, f (pos 4096 128 (s * 3 + 2) a.val r l.val)))).trans ?_
  refine Finset.sum_congr rfl (fun s _ => ?_)
  rw [sum_rot4]
  refine Finset.sum_congr rfl (fun r _ => Finset.sum_congr rfl (fun l _ => ?_))
  rw [Fin.sum_univ_three]
  congr 1
  · congr 1
    · refine Finset.sum_congr rfl (fun a _ => ?_)
      congr 1
      simp only [pos, Fin.val_zero]
      omega
    · refine Finset.sum_congr rfl (fun a _ => ?_)
      congr 1
      simp only [pos, Fin.val_one]
      omega
  · refine Finset.sum_congr rfl (fun a _ => ?_)
    congr 1
    simp only [pos, Fin.val_two]
    omega

end Layouts

/-! ## The partial sums add up to the sum over all positions, and the two results agree -/

theorem sum_partK (x y : S4.Idx → EReal) :
    ∑ j : SK.Idx, partK x y j = ∑ k ∈ Finset.range 3145728, errK x y k := by
  simp only [partK, foldK]
  exact sum_layoutK (errK x y)

theorem sum_partR (x y : S4.Idx → EReal) :
    ∑ j : SR.Idx, partR x y j = ∑ k ∈ Finset.range 3145728, errR x y k := by
  simp only [partR, foldR]
  exact sum_layoutR (errR x y)

theorem resK_eq_resR (x y : S4.Idx → EReal) (hx : Finite x) (hy : Finite y) : resK x y = resR x y := by
  unfold resK resR meanOf
  rw [sum_partK, sum_partR, Finset.sum_congr rfl (fun k _ => errK_eq_errR x y hx hy k)]

end Charb

end
-- ==== Proof.FiniteInputs.lean ====
/-
  From the precondition to real entries.

  The precondition says that a predicate of the two argument arrays is all ones.  The predicate is the conjunction of
  two reductions by `and`, one per array, over every index `i` of the comparison `|x i| < +∞`, the bound being the
  pattern `0x7F800000` (the positive infinity of the 32-bit format, which denotes `⊤`).  A conjunction that is one
  has both conjuncts one; a reduction by `and` over all axes that is one met a one at every index; and an extended
  real `x` with `max x (-x) < ⊤` is neither `⊤` (then `max x (-x) = ⊤`) nor `⊥` (then `-x = ⊤`), hence a real number.
-/
import proofs.«117031_g2000302971103860_pallasbulk_1339_13_alg».proof.Defs
import proofs.«117031_g2000302971103860_pallasbulk_1339_13_alg».proof.Proof.Spec
import Idealize.ShloMosaic.Lib.ReduceAll

namespace Cert.KernelIdeal.FiniteInputs

open Idealize.ShloMosaic Idealize.SL.Sem

/-- The pattern with all exponent bits set, sign and fraction zero, denotes `+∞`. -/
theorem inf_pattern : Ideal.ofBits .f32 0x7F800000#32 = (⊤ : EReal) := by
  simp [Ideal.ofBits, Ideal.ieee]

/-- An extended real whose absolute value `max x (-x)` is strictly below `+∞` is a real number: at `⊤` the maximum
    is `⊤`, at `⊥` the negation is `⊤`, and neither is strictly below `⊤`. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [inf_pattern] at h
  induction x using EReal.rec with
  | bot => simp [Ideal.cmp] at h
  | top => simp [Ideal.cmp] at h
  | coe r => exact ⟨r, rfl⟩

/-- A rank-zero shape has exactly one index (the empty tuple). -/
instance subsingleton_scalar_idx : Subsingleton Cert.Pre_finite_inputs.S_.Idx :=
  ⟨fun a b => funext fun d => d.elim0⟩

/-- Under the precondition, every entry of each of the two argument arrays is a real number. -/
theorem finite_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Charb.Finite (m ((c.tc : Thread Cert.KernelIdeal.nD Cert.KernelIdeal.τ).loc Cert.KernelIdeal.main_arg0))
      ∧ Charb.Finite (m ((c.tc : Thread Cert.KernelIdeal.nD Cert.KernelIdeal.τ).loc Cert.KernelIdeal.main_arg1)) := by
  -- the predicate's single entry is one
  have h0 := congrFun (h c) ValueIdx.ix0
  dsimp only [Cert.Pre_finite_inputs.fn] at h0
  -- a conjunction that is one: both reductions are one
  obtain ⟨ha, hb⟩ := IntOp.andi_eq_one.1 h0
  -- a reduction by `and` over all axes that is one: the comparison is one at every index
  refine ⟨fun i => ?_, fun i => ?_⟩
  · exact real_of_abs_lt _ (Host.reduce_andi_all _ _ _ _ _ ha i)
  · exact real_of_abs_lt _ (Host.reduce_andi_all _ _ _ _ _ hb i)

end Cert.KernelIdeal.FiniteInputs
-- ==== Proof.lean ====
/-
  The certificate of the mean Charbonnier error kernel against its reference.

  Both programs compute the sum over all 3145728 positions of the error at that position, divided by the count; the
  first writes the error as `v * rsqrt v` with `v = (x - y)^2 + eps`, the second as `sqrt v`, and the two lay the
  arrays out in different blocks and add the blocks' folds in different groupings.

  * The three frames: the first program's two readings have their frames proved whole by the modules imported from
    `Gen`; the second program's frame is proved in `RefFrame` (its body run once per way its two conditionals go,
    the accumulating output block followed step by step).
  * The idealization rewrote nothing, so `preserves` is `True`.
  * `algebraic`: the first program's run ends at the specification's `resK` of its arguments (`KerValue.run`), the
    second's at `resR` (`RefValue.run`); the arguments agree; and `resK = resR` on arrays of real numbers
    (`Charb.resK_eq_resR`: the two sums are re-indexings of one sum over the row-major positions, and on a positive
    real `v` the two spellings of the error agree) — which is what the precondition gives (`finite_of_pre`).  On the
    extended reals the precondition is needed: at `v = ⊤` the first spelling gives `⊤ * 0 = 0`, the second `⊤`.
-/
import proofs.«117031_g2000302971103860_pallasbulk_1339_13_alg».proof.Defs
import proofs.«117031_g2000302971103860_pallasbulk_1339_13_alg».proof.Proof.Gen.Kernel
import proofs.«117031_g2000302971103860_pallasbulk_1339_13_alg».proof.Proof.Gen.Kernel.Frame
import proofs.«117031_g2000302971103860_pallasbulk_1339_13_alg».proof.Proof.Gen.KernelIdeal
import proofs.«117031_g2000302971103860_pallasbulk_1339_13_alg».proof.Proof.Gen.KernelIdeal.Frame
import proofs.«117031_g2000302971103860_pallasbulk_1339_13_alg».proof.Proof.Gen.ReferenceIdeal
import proofs.«117031_g2000302971103860_pallasbulk_1339_13_alg».proof.Proof.Gen.Pre_finite_inputs
import proofs.«117031_g2000302971103860_pallasbulk_1339_13_alg».proof.Proof.RefValue
import proofs.«117031_g2000302971103860_pallasbulk_1339_13_alg».proof.Proof.KerValue
import proofs.«117031_g2000302971103860_pallasbulk_1339_13_alg».proof.Proof.Algebra
import proofs.«117031_g2000302971103860_pallasbulk_1339_13_alg».proof.Proof.FiniteInputs
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.RefFrame.frame m ρ

/-- From arguments that agree and are real numbers, both runs end, the first at `resK` of its arguments and the second
    at `resR` of the same arrays, and those are one extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Charb.resK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KerValue.run m ρ, ?_⟩
  refine (θ_run (Cert.ReferenceIdeal.defs (F := Ideal)) _ _).mono (fun _ h c => ⟨(h c).1.trans ?_, (h c).2⟩)
    (Cert.ReferenceIdeal.RefValue.run m' ρ')
  rw [(hagree c).1, (hagree c).2]
  have hfin := Cert.KernelIdeal.FiniteInputs.finite_of_pre (hPre := Cert.Pre_finite_inputs.Gen.facts) m hpre c
  exact (Charb.resK_eq_resR _ _ hfin.1 hfin.2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
